-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S5000x128 : Shape := ⟨2, ![5000, 128]⟩
abbrev S5000x16 : Shape := ⟨2, ![5000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩

abbrev nBuf : Space → Nat
  | .hbm => 133
  | .vmem => 10
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x40, .f32⟩
  | 5 => ⟨S40, .f32⟩
  | 6 => ⟨S100000x16, .f32⟩
  | 7 => ⟨S1x3200000, .i32⟩
  | 8 => ⟨S3200000, .i32⟩
  | 9 => ⟨S1x3200000, .i32⟩
  | 10 => ⟨S3200000, .i32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x40, .f32⟩
  | 72 => ⟨S1x3200000, .i32⟩
  | 73 => ⟨S3200000, .i32⟩
  | 74 => ⟨S1x3200000, .i32⟩
  | 75 => ⟨S3200000, .i32⟩
  | 76 => ⟨S100000, .i32⟩
  | 77 => ⟨S3300000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x40, .f32⟩
  | 123 => ⟨S3300000x1, .f32⟩
  | 124 => ⟨S3300000x40, .f32⟩
  | 125 => ⟨S3300000x40, .f32⟩
  | 126 => ⟨S_, .f32⟩
  | 127 => ⟨S100000x40, .f32⟩
  | _ => ⟨S100000x128, .f32⟩

abbrev hbmTy0_1 (i : Nat) : BufTy := match i % 128 with
  | 0 => ⟨S3300000x1, .i32⟩
  | 1 => ⟨S100000x40, .f32⟩
  | 2 => ⟨S1x40, .f32⟩
  | 3 => ⟨S100000x40, .f32⟩
  | 4 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x40, .f32⟩
  | .local _ .vmem, ⟨8, _⟩ => ⟨S5000x40, .f32⟩
  | .local _ .vmem, ⟨9, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S5000x128_S128x16_S5000x16_1_0_0_1_n_n_wf : DotDims.WF S5000x128 S128x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x40, .f32⟩
  | 5 => ⟨S40, .f32⟩
  | 6 => ⟨S100000x16, .f32⟩
  | 7 => ⟨S1x3200000, .i32⟩
  | 8 => ⟨S3200000, .i32⟩
  | 9 => ⟨S1x3200000, .i32⟩
  | 10 => ⟨S3200000, .i32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x40, .f32⟩
  | 72 => ⟨S1x3200000, .i32⟩
  | 73 => ⟨S3200000, .i32⟩
  | 74 => ⟨S1x3200000, .i32⟩
  | 75 => ⟨S3200000, .i32⟩
  | 76 => ⟨S100000, .i32⟩
  | 77 => ⟨S3300000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x40, .f32⟩
  | 123 => ⟨S3300000x1, .f32⟩
  | 124 => ⟨S3300000x40, .f32⟩
  | 125 => ⟨S3300000x40, .f32⟩
  | 126 => ⟨S_, .f32⟩
  | 127 => ⟨S100000x40, .f32⟩
  | _ => ⟨S100000x128, .f32⟩

abbrev hbmTy0_1 (i : Nat) : BufTy := match i % 128 with
  | 0 => ⟨S3300000x1, .i32⟩
  | 1 => ⟨S100000x40, .f32⟩
  | 2 => ⟨S1x40, .f32⟩
  | 3 => ⟨S100000x40, .f32⟩
  | 4 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its result named.

  The program is two grid regions among stretches of host operations. From any launch memory every weakly fair
  execution terminates without a fault, and at the end each buffer that outlives the regions holds what the
  segments leave there one after the other: a host stretch rewrites the buffers its operations write, a region
  leaves each of its output arrays at what its write-backs add up to, and everything else stays. Read at the
  result buffer this names the result; read at an argument it gives back the launch contents, since no segment
  writes an argument.
-/
import proofs.«100391_j23330262351896_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result buffer holds after the last segment: the fold of the segments from the launch memory, read at
    the result. -/
abbrev result (c : Dev nD) : Buf (Elt F) ((c : Thread nD τ).loc main_v96) := W9 m ρ c (Proc.devRef .tc main_v96)

set_option backward.isDefEq.respectTransparency.types false in
/-- THE RUN, WITH THE RESULT NAMED: every weakly fair execution terminates, nothing faulting, with the result
    buffer at `result` and the six argument arrays as launched. -/
theorem run : θ_run defs (onTc (τ := τ) (main (F := F))) ⟨m, fun _ => 0, ρ⟩ (fun r => ∀ c : Dev nD,
      r.2.mem ((c.tc : Thread nD τ).loc main_v96) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v96 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.FeatureBlock.lean ====
/-
  One grid step of the first dense layer, read at an entry.

  The step loads a block of 5000 node rows of the feature matrix and the whole 128 × 16 weight matrix, narrows
  both to bf16 — no change of value on the extended reals — and multiplies them into an accumulator of zeros.
  Entry (p, q) of the block it stores is therefore the plain sum, over the 128 features k, of the block at (p, k)
  times the weight at (k, q): no term besides the products, and the products in the order row × column.
-/
import proofs.«100391_j23330262351896_1_alg».proof.Proof.Gen.KernelIdeal.Skeleton
import Idealize.ShloMosaic.PureOps.Ideal.Laws
import Idealize.ShloMosaic.Lib.ValueIdx

noncomputable section

open scoped BigOperators

namespace Cert.KernelIdeal.FeatureBlock

open Idealize.ShloMosaic Idealize.ShloMosaic.ValueIdx Cert.KernelIdeal Cert.KernelIdeal.Gen

/-- The left factor of the product at output entry `j` sits in row `j 0` of the block of features: the row axis
    is the one axis of the left operand that is neither contracted nor a batch axis. -/
theorem left_row (j : S5000x16.Idx) (κ : dot_S5000x128_S128x16_S5000x16_1_0_0_1_n_n.contr.Idx) :
    (dot_S5000x128_S128x16_S5000x16_1_0_0_1_n_n.lhsIdx j κ 0).val = (j 0).val := by
  unfold DotDims.lhsIdx
  rw [dif_neg (show ¬(0 : Fin S5000x128.rank) ∈ dot_S5000x128_S128x16_S5000x16_1_0_0_1_n_n.lhsBatch by decide),
    dif_pos (show (0 : Fin S5000x128.rank) ∈ dot_S5000x128_S128x16_S5000x16_1_0_0_1_n_n.lhsNonContracting by decide)]
  rfl

/-- The right factor sits in column `j 1` of the weights: the column axis is the one axis of the right operand that
    is neither contracted nor a batch axis. -/
theorem right_col (j : S5000x16.Idx) (κ : dot_S5000x128_S128x16_S5000x16_1_0_0_1_n_n.contr.Idx) :
    (dot_S5000x128_S128x16_S5000x16_1_0_0_1_n_n.rhsIdx j κ 1).val = (j 1).val := by
  unfold DotDims.rhsIdx
  rw [dif_neg (show ¬(1 : Fin S128x16.rank) ∈ dot_S5000x128_S128x16_S5000x16_1_0_0_1_n_n.rhsBatch by decide),
    dif_pos (show (1 : Fin S128x16.rank) ∈ dot_S5000x128_S128x16_S5000x16_1_0_0_1_n_n.rhsNonContracting by decide)]
  rfl

/-- The contraction has one axis, the 128 features; `k` below is its coordinate. -/
abbrev feature : dot_S5000x128_S128x16_S5000x16_1_0_0_1_n_n.contr.Idx ≃ Fin 128 :=
  contrEquiv1 dot_S5000x128_S128x16_S5000x16_1_0_0_1_n_n 128 rfl rfl

/-- At output entry (p, q) and feature k the left operand is read at (p, k). -/
theorem left_at (p : Fin 5000) (q : Fin 16) (k : Fin 128) :
    dot_S5000x128_S128x16_S5000x16_1_0_0_1_n_n.lhsIdx (ix2 p q) (feature.symm k) = ix2 p k :=
  funext fun a => Fin.ext (by
    have hk := contrEquiv1_symm_val dot_S5000x128_S128x16_S5000x16_1_0_0_1_n_n 128 rfl rfl k
    match a with
    | ⟨0, _⟩ => exact left_row _ _
    | ⟨1, _⟩ => exact (dot_S5000x128_S128x16_S5000x16_1_0_0_1_n_n.lhsIdx_val_of_single rfl _ _).trans hk)

/-- At output entry (p, q) and feature k the right operand is read at (k, q). -/
theorem right_at (p : Fin 5000) (q : Fin 16) (k : Fin 128) :
    dot_S5000x128_S128x16_S5000x16_1_0_0_1_n_n.rhsIdx (ix2 p q) (feature.symm k) = ix2 k q :=
  funext fun a => Fin.ext (by
    have hk := contrEquiv1_symm_val dot_S5000x128_S128x16_S5000x16_1_0_0_1_n_n 128 rfl rfl k
    match a with
    | ⟨0, _⟩ => exact (dot_S5000x128_S128x16_S5000x16_1_0_0_1_n_n.rhsIdx_val_of_single rfl _ _).trans hk
    | ⟨1, _⟩ => exact right_col _ _)

/-- THE STORED BLOCK AT AN ENTRY: row p of the loaded feature block against column q of the weights, summed over
    the 128 features. Narrowing to bf16 is the identity here and the accumulator the product starts from is zero. -/
theorem entry (x : FVec Ideal S5000x128 .f32) (w : FVec Ideal S128x16 .f32) (p : Fin 5000) (q : Fin 16) :
    k0_pay1 (F := Ideal) x w (ix2 p q) = ∑ k : Fin 128, x (ix2 p k) * w (ix2 k q) := by
  unfold k0_pay1
  refine (Ideal.matmul_constant_zero_apply dot_S5000x128_S128x16_S5000x16_1_0_0_1_n_n none
    (truncf .bf16 x bitsLt_bf16_f32) (truncf .bf16 w bitsLt_bf16_f32) (ix2 p q)).trans ?_
  rw [← Equiv.sum_comp feature.symm]
  refine Finset.sum_congr rfl fun k _ => ?_
  rw [left_at p q k, right_at p q k]
  rfl

end Cert.KernelIdeal.FeatureBlock

end
-- ==== Proof.WholeProduct.lean ====
/-
  The two dense products of the reference, read at an entry.

  On the extended reals the host's matrix product of an array X of node rows with a weight matrix W is, at entry
  (r, q), the plain sum over the contracted axis k of X at (r, k) times W at (k, q), with no starting term: the same
  sum, in the same order of factors, that one grid step of the kernel forms for the rows of its block.
-/
import proofs.«100391_j23330262351896_1_alg».proof.Proof.Gen.ReferenceIdeal
import Idealize.ShloMosaic.PureOps.Ideal.Laws
import Idealize.ShloMosaic.Lib.ValueIdx

noncomputable section

open scoped BigOperators
open Idealize.ShloMosaic Idealize.ShloMosaic.ValueIdx Cert.ReferenceIdeal

namespace Cert.ReferenceIdeal.FeatureProduct

/-- The left factor of the product at output entry `j` sits in row `j 0` of the feature matrix: the row axis is the one
    axis of the left operand that is neither contracted nor a batch axis. -/
theorem left_row (j : S100000x16.Idx) (κ : dot_S100000x128_S128x16_S100000x16_1_0_0_1_n_n.contr.Idx) :
    (dot_S100000x128_S128x16_S100000x16_1_0_0_1_n_n.lhsIdx j κ 0).val = (j 0).val := by
  unfold DotDims.lhsIdx
  rw [dif_neg (show ¬(0 : Fin S100000x128.rank) ∈ dot_S100000x128_S128x16_S100000x16_1_0_0_1_n_n.lhsBatch by decide),
    dif_pos (show (0 : Fin S100000x128.rank) ∈ dot_S100000x128_S128x16_S100000x16_1_0_0_1_n_n.lhsNonContracting by decide)]
  rfl

/-- The right factor sits in column `j 1` of the weights: the column axis is the one axis of the right operand that
    is neither contracted nor a batch axis. -/
theorem right_col (j : S100000x16.Idx) (κ : dot_S100000x128_S128x16_S100000x16_1_0_0_1_n_n.contr.Idx) :
    (dot_S100000x128_S128x16_S100000x16_1_0_0_1_n_n.rhsIdx j κ 1).val = (j 1).val := by
  unfold DotDims.rhsIdx
  rw [dif_neg (show ¬(1 : Fin S128x16.rank) ∈ dot_S100000x128_S128x16_S100000x16_1_0_0_1_n_n.rhsBatch by decide),
    dif_pos (show (1 : Fin S128x16.rank) ∈ dot_S100000x128_S128x16_S100000x16_1_0_0_1_n_n.rhsNonContracting by decide)]
  rfl

/-- The contraction has one axis, the 128 features; `k` below is its coordinate. -/
abbrev inner : dot_S100000x128_S128x16_S100000x16_1_0_0_1_n_n.contr.Idx ≃ Fin 128 :=
  contrEquiv1 dot_S100000x128_S128x16_S100000x16_1_0_0_1_n_n 128 rfl rfl

/-- At output entry (r, q) and inner coordinate k the left operand is read at (r, k). -/
theorem left_at (r : Fin 100000) (q : Fin 16) (k : Fin 128) :
    dot_S100000x128_S128x16_S100000x16_1_0_0_1_n_n.lhsIdx (ix2 r q) (inner.symm k) = ix2 r k :=
  funext fun a => Fin.ext (by
    have hk := contrEquiv1_symm_val dot_S100000x128_S128x16_S100000x16_1_0_0_1_n_n 128 rfl rfl k
    match a with
    | ⟨0, _⟩ => exact left_row _ _
    | ⟨1, _⟩ => exact (dot_S100000x128_S128x16_S100000x16_1_0_0_1_n_n.lhsIdx_val_of_single rfl _ _).trans hk)

/-- At output entry (r, q) and inner coordinate k the right operand is read at (k, q). -/
theorem right_at (r : Fin 100000) (q : Fin 16) (k : Fin 128) :
    dot_S100000x128_S128x16_S100000x16_1_0_0_1_n_n.rhsIdx (ix2 r q) (inner.symm k) = ix2 k q :=
  funext fun a => Fin.ext (by
    have hk := contrEquiv1_symm_val dot_S100000x128_S128x16_S100000x16_1_0_0_1_n_n 128 rfl rfl k
    match a with
    | ⟨0, _⟩ => exact (dot_S100000x128_S128x16_S100000x16_1_0_0_1_n_n.rhsIdx_val_of_single rfl _ _).trans hk
    | ⟨1, _⟩ => exact right_col _ _)

/-- THE FIRST LAYER'S PRODUCT AT AN ENTRY: node r's 128 features against column q of the first weight matrix. -/
theorem entry (X : FVec Ideal S100000x128 .f32) (W : FVec Ideal S128x16 .f32) (r : Fin 100000) (q : Fin 16) :
    Host.dotGeneral (F := Ideal) dot_S100000x128_S128x16_S100000x16_1_0_0_1_n_n none X W (ix2 r q) = ∑ k : Fin 128, X (ix2 r k) * W (ix2 k q) := by
  refine (Ideal.dotGeneral_apply dot_S100000x128_S128x16_S100000x16_1_0_0_1_n_n none .single X W (ix2 r q)).trans ?_
  rw [← Equiv.sum_comp inner.symm]
  refine Finset.sum_congr rfl fun k _ => ?_
  rw [left_at r q k, right_at r q k]

end Cert.ReferenceIdeal.FeatureProduct

namespace Cert.ReferenceIdeal.HiddenProduct

/-- The left factor of the product at output entry `j` sits in row `j 0` of the hidden activations: the row axis is the one
    axis of the left operand that is neither contracted nor a batch axis. -/
theorem left_row (j : S100000x40.Idx) (κ : dot_S100000x16_S16x40_S100000x40_1_0_0_1_n_n.contr.Idx) :
    (dot_S100000x16_S16x40_S100000x40_1_0_0_1_n_n.lhsIdx j κ 0).val = (j 0).val := by
  unfold DotDims.lhsIdx
  rw [dif_neg (show ¬(0 : Fin S100000x16.rank) ∈ dot_S100000x16_S16x40_S100000x40_1_0_0_1_n_n.lhsBatch by decide),
    dif_pos (show (0 : Fin S100000x16.rank) ∈ dot_S100000x16_S16x40_S100000x40_1_0_0_1_n_n.lhsNonContracting by decide)]
  rfl

/-- The right factor sits in column `j 1` of the weights: the column axis is the one axis of the right operand that
    is neither contracted nor a batch axis. -/
theorem right_col (j : S100000x40.Idx) (κ : dot_S100000x16_S16x40_S100000x40_1_0_0_1_n_n.contr.Idx) :
    (dot_S100000x16_S16x40_S100000x40_1_0_0_1_n_n.rhsIdx j κ 1).val = (j 1).val := by
  unfold DotDims.rhsIdx
  rw [dif_neg (show ¬(1 : Fin S16x40.rank) ∈ dot_S100000x16_S16x40_S100000x40_1_0_0_1_n_n.rhsBatch by decide),
    dif_pos (show (1 : Fin S16x40.rank) ∈ dot_S100000x16_S16x40_S100000x40_1_0_0_1_n_n.rhsNonContracting by decide)]
  rfl

/-- The contraction has one axis, the 16 hidden units; `k` below is its coordinate. -/
abbrev inner : dot_S100000x16_S16x40_S100000x40_1_0_0_1_n_n.contr.Idx ≃ Fin 16 :=
  contrEquiv1 dot_S100000x16_S16x40_S100000x40_1_0_0_1_n_n 16 rfl rfl

/-- At output entry (r, q) and inner coordinate k the left operand is read at (r, k). -/
theorem left_at (r : Fin 100000) (q : Fin 40) (k : Fin 16) :
    dot_S100000x16_S16x40_S100000x40_1_0_0_1_n_n.lhsIdx (ix2 r q) (inner.symm k) = ix2 r k :=
  funext fun a => Fin.ext (by
    have hk := contrEquiv1_symm_val dot_S100000x16_S16x40_S100000x40_1_0_0_1_n_n 16 rfl rfl k
    match a with
    | ⟨0, _⟩ => exact left_row _ _
    | ⟨1, _⟩ => exact (dot_S100000x16_S16x40_S100000x40_1_0_0_1_n_n.lhsIdx_val_of_single rfl _ _).trans hk)

/-- At output entry (r, q) and inner coordinate k the right operand is read at (k, q). -/
theorem right_at (r : Fin 100000) (q : Fin 40) (k : Fin 16) :
    dot_S100000x16_S16x40_S100000x40_1_0_0_1_n_n.rhsIdx (ix2 r q) (inner.symm k) = ix2 k q :=
  funext fun a => Fin.ext (by
    have hk := contrEquiv1_symm_val dot_S100000x16_S16x40_S100000x40_1_0_0_1_n_n 16 rfl rfl k
    match a with
    | ⟨0, _⟩ => exact (dot_S100000x16_S16x40_S100000x40_1_0_0_1_n_n.rhsIdx_val_of_single rfl _ _).trans hk
    | ⟨1, _⟩ => exact right_col _ _)

/-- THE SECOND LAYER'S PRODUCT AT AN ENTRY: node r's 16 hidden activations against column q of the second weight matrix. -/
theorem entry (X : FVec Ideal S100000x16 .f32) (W : FVec Ideal S16x40 .f32) (r : Fin 100000) (q : Fin 40) :
    Host.dotGeneral (F := Ideal) dot_S100000x16_S16x40_S100000x40_1_0_0_1_n_n none X W (ix2 r q) = ∑ k : Fin 16, X (ix2 r k) * W (ix2 k q) := by
  refine (Ideal.dotGeneral_apply dot_S100000x16_S16x40_S100000x40_1_0_0_1_n_n none .single X W (ix2 r q)).trans ?_
  rw [← Equiv.sum_comp inner.symm]
  refine Finset.sum_congr rfl fun k _ => ?_
  rw [left_at r q k, right_at r q k]

end Cert.ReferenceIdeal.HiddenProduct

end
-- ==== Proof.FeatureLayer.lean ====
/-
  The first dense layer over all its grid steps: the output array ends as the whole product x · W1.

  The grid has 20 steps. Step t reads rows 5000 t … 5000 t + 4999 of the feature matrix and the whole 128 × 16
  weight matrix, and writes rows 5000 t … 5000 t + 4999 of the output. Entry (p, q) of what it writes is the sum
  over k of the block at (p, k) times the weight at (k, q), which is entry (5000 t + p, q) of the product of the
  whole arrays: a row of a matrix product depends on that row of the left factor only. The 20 row blocks are
  disjoint and every row lies in the block of step r / 5000, so after the last step the output array is the
  whole product, whatever it held before.
-/
import proofs.«100391_j23330262351896_1_alg».proof.Proof.Gen.KernelIdeal.Frame
import proofs.«100391_j23330262351896_1_alg».proof.Proof.FeatureBlock
import proofs.«100391_j23330262351896_1_alg».proof.Proof.WholeProduct
import Idealize.ShloMosaic.Lib.Pipeline.Value
import Idealize.ShloMosaic.Lib.ValueIdx

noncomputable section

open scoped BigOperators

namespace Cert.KernelIdeal.FeatureLayer

open Idealize.ShloMosaic Idealize.ShloMosaic.TcCoe Idealize.ShloMosaic.ValueIdx Idealize.ShloMosaic.Pipeline Cert.KernelIdeal Cert.KernelIdeal.Gen

-- the buffer contents the step sequence starts from: any
variable (V : (c : Dev nD) → (b : Ref sig .tc) → Buf (Elt Ideal) ((c : Thread nD τ).loc b))

theorem zero_offsets : (![0, 0] : Fin 2 → Nat) = fun _ => 0 := funext fun a => by fin_cases a <;> rfl

/-- Where each step's blocks sit: the left operand's and the output's at block (t, 0), the weights' at (0, 0). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of step t's block is row 5000 t + p of the array, and there are 20 steps. -/
theorem row_lt (t : Fin cfg0.N) (p : Fin 5000) : t.val * 5000 + p.val < 100000 := by
  have h := t.isLt; have hN : cfg0.N = 20 := N_0; omega

/-- The whole product of the two operand arrays as the steps find them. -/
abbrev product (c : Dev nD) : FVec Ideal S100000x16 .f32 :=
  Host.dotGeneral (F := Ideal) (φ₁ := .f32) (φ₂ := .f32) Cert.ReferenceIdeal.dot_S100000x128_S128x16_S100000x16_1_0_0_1_n_n none
    (V c main_arg0 : FVec Ideal S100000x128 .f32) (V c main_arg2 : FVec Ideal S128x16 .f32)

/-- The left operand's block at step t is rows 5000 t … of its array. -/
theorem rows_block (c : Dev nD) (t : Fin cfg0.N) (p : Fin 5000) (k : Fin 128) :
    (iblk0 V c 0 t : Vec Ideal S5000x128 .f32) (ix2 p k)
      = (V c main_arg0 : S100000x128.Idx → Elt Ideal .f32) (ix2 ⟨t.val * 5000 + p.val, row_lt t p⟩ k) := by
  obtain ⟨e0, e1, -, -, -, -⟩ := block_positions t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * k.val = k.val; rw [e1]; omega

/-- The weights' block at every step is the whole weight matrix. -/
theorem weights_block (c : Dev nD) (t : Fin cfg0.N) (k : Fin 128) (q : Fin 16) :
    (iblk0 V c 1 t : Vec Ideal S128x16 .f32) (ix2 k q)
      = (V c main_arg2 : S128x16.Idx → Elt Ideal .f32) (ix2 k q) := by
  obtain ⟨-, -, e2, e3, -, -⟩ := block_positions t
  unfold iblk0
  rw [View.read_apply]
  show V c main_arg2 _ = V c main_arg2 _
  congr 1
  funext a
  apply Fin.ext
  match a with
  | ⟨0, _⟩ => show win0_1.index t 0 * 128 + 1 * k.val = k.val; rw [e2]; omega
  | ⟨1, _⟩ => show win0_1.index t 1 * 16 + 1 * q.val = q.val; rw [e3]; omega

/-- WHAT STEP t WRITES BACK is rows 5000 t … 5000 t + 4999 of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x16) zero_offsets]
  obtain ⟨-, -, -, -, e4, e5⟩ := block_positions t
  funext j
  obtain ⟨p, q, rfl⟩ : ∃ (p : Fin 5000) (q : Fin 16), j = ix2 p q := ⟨j 0, j 1, eq_ix2 j⟩
  have hpos : ((cfg0.win 2).blk t).view.emb (ix2 p q) = ix2 ⟨t.val * 5000 + p.val, row_lt t p⟩ q := by
    funext a
    apply Fin.ext
    match a with
    | ⟨0, _⟩ => show win0_2.index t 0 * 5000 + 1 * p.val = t.val * 5000 + p.val; rw [e4]; omega
    | ⟨1, _⟩ => show win0_2.index t 1 * 16 + 1 * q.val = q.val; rw [e5]; omega
  refine (Cert.KernelIdeal.FeatureBlock.entry (iblk0 V c 0 t) (iblk0 V c 1 t) p q).trans ?_
  refine Eq.trans ?_ (congrArg (product V c) hpos).symm
  refine Eq.trans ?_ (Cert.ReferenceIdeal.FeatureProduct.entry (V c main_arg0) (V c main_arg2) ⟨t.val * 5000 + p.val, row_lt t p⟩ q).symm
  exact Finset.sum_congr rfl fun k _ => by rw [rows_block V c t p k, weights_block V c t k q]

/-- Every entry of the output array is in the block of some step: row r in that of step r / 5000. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 100000 := (i 0).isLt
  have h1 : (i 1 : Nat) < 16 := (i 1).isLt
  have hN : cfg0.N = 20 := N_0
  obtain ⟨t, ht⟩ : ∃ t : Fin cfg0.N, t.val = (i 0 : Nat) / 5000 := ⟨⟨(i 0 : Nat) / 5000, by rw [hN]; omega⟩, rfl⟩
  obtain ⟨-, -, -, -, e4, e5⟩ := block_positions t
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 5000 ≤ (i 0 : Nat) ∧ (i 0 : Nat) < win0_2.index t 0 * 5000 + 5000
    rw [e4, ht]; omega
  | ⟨1, _⟩ =>
    show win0_2.index t 1 * 16 ≤ (i 1 : Nat) ∧ (i 1 : Nat) < win0_2.index t 1 * 16 + 16
    rw [e5]; omega

/-- THE OUTPUT ARRAY AFTER THE LAST STEP is the whole product of the two operand arrays. -/
theorem final (c : Dev nD) : (dat0 V c).arrAt 2 cfg0.N = product V c :=
  (dat0 V c).arrAt_eq_of_cover 2 (product V c) (fun t _ => flushed_eq V c t) (covered c)

end Cert.KernelIdeal.FeatureLayer

end
-- ==== Proof.HiddenBlock.lean ====
/-
  One grid step of the second dense layer, read at an entry.

  The step loads a block of 5000 node rows of the hidden activations and the whole 16 × 40 weight matrix, recasts
  the block to the shape it already has, narrows both operands to bf16 — neither step changes a value on the
  extended reals — and multiplies them into an accumulator of zeros. Entry (p, q) of the block it stores is the
  plain sum, over the 16 hidden units k, of the block at (p, k) times the weight at (k, q).
-/
import proofs.«100391_j23330262351896_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.HiddenBlock

open Idealize.ShloMosaic Idealize.ShloMosaic.ValueIdx Cert.KernelIdeal Cert.KernelIdeal.Gen

/-- The left factor of the product at output entry `j` sits in row `j 0` of the block of activations: the row axis
    is the one axis of the left operand that is neither contracted nor a batch axis. -/
theorem left_row (j : S5000x40.Idx) (κ : dot_S5000x16_S16x40_S5000x40_1_0_0_1_n_n.contr.Idx) :
    (dot_S5000x16_S16x40_S5000x40_1_0_0_1_n_n.lhsIdx j κ 0).val = (j 0).val := by
  unfold DotDims.lhsIdx
  rw [dif_neg (show ¬(0 : Fin S5000x16.rank) ∈ dot_S5000x16_S16x40_S5000x40_1_0_0_1_n_n.lhsBatch by decide),
    dif_pos (show (0 : Fin S5000x16.rank) ∈ dot_S5000x16_S16x40_S5000x40_1_0_0_1_n_n.lhsNonContracting by decide)]
  rfl

/-- The right factor sits in column `j 1` of the weights: the column axis is the one axis of the right operand that
    is neither contracted nor a batch axis. -/
theorem right_col (j : S5000x40.Idx) (κ : dot_S5000x16_S16x40_S5000x40_1_0_0_1_n_n.contr.Idx) :
    (dot_S5000x16_S16x40_S5000x40_1_0_0_1_n_n.rhsIdx j κ 1).val = (j 1).val := by
  unfold DotDims.rhsIdx
  rw [dif_neg (show ¬(1 : Fin S16x40.rank) ∈ dot_S5000x16_S16x40_S5000x40_1_0_0_1_n_n.rhsBatch by decide),
    dif_pos (show (1 : Fin S16x40.rank) ∈ dot_S5000x16_S16x40_S5000x40_1_0_0_1_n_n.rhsNonContracting by decide)]
  rfl

/-- The contraction has one axis, the 16 hidden units; `k` below is its coordinate. -/
abbrev hidden : dot_S5000x16_S16x40_S5000x40_1_0_0_1_n_n.contr.Idx ≃ Fin 16 :=
  contrEquiv1 dot_S5000x16_S16x40_S5000x40_1_0_0_1_n_n 16 rfl rfl

/-- At output entry (p, q) and hidden unit k the left operand is read at (p, k). -/
theorem left_at (p : Fin 5000) (q : Fin 40) (k : Fin 16) :
    dot_S5000x16_S16x40_S5000x40_1_0_0_1_n_n.lhsIdx (ix2 p q) (hidden.symm k) = ix2 p k :=
  funext fun a => Fin.ext (by
    have hk := contrEquiv1_symm_val dot_S5000x16_S16x40_S5000x40_1_0_0_1_n_n 16 rfl rfl k
    match a with
    | ⟨0, _⟩ => exact left_row _ _
    | ⟨1, _⟩ => exact (dot_S5000x16_S16x40_S5000x40_1_0_0_1_n_n.lhsIdx_val_of_single rfl _ _).trans hk)

/-- At output entry (p, q) and hidden unit k the right operand is read at (k, q). -/
theorem right_at (p : Fin 5000) (q : Fin 40) (k : Fin 16) :
    dot_S5000x16_S16x40_S5000x40_1_0_0_1_n_n.rhsIdx (ix2 p q) (hidden.symm k) = ix2 k q :=
  funext fun a => Fin.ext (by
    have hk := contrEquiv1_symm_val dot_S5000x16_S16x40_S5000x40_1_0_0_1_n_n 16 rfl rfl k
    match a with
    | ⟨0, _⟩ => exact (dot_S5000x16_S16x40_S5000x40_1_0_0_1_n_n.rhsIdx_val_of_single rfl _ _).trans hk
    | ⟨1, _⟩ => exact right_col _ _)

/-- THE STORED BLOCK AT AN ENTRY: row p of the loaded activation block against column q of the weights, summed over
    the 16 hidden units. The recast to the same shape and the narrowing to bf16 are the identity here, and the
    accumulator the product starts from is zero. -/
theorem entry (h : FVec Ideal S5000x16 .f32) (w : FVec Ideal S16x40 .f32) (p : Fin 5000) (q : Fin 40) :
    k1_pay1 (F := Ideal) h w (ix2 p q) = ∑ k : Fin 16, h (ix2 p k) * w (ix2 k q) := by
  unfold k1_pay1
  rw [shapeCast_self h shapeCasts_S5000x16_S5000x16]
  refine (Ideal.matmul_constant_zero_apply dot_S5000x16_S16x40_S5000x40_1_0_0_1_n_n none
    (truncf .bf16 h bitsLt_bf16_f32) (truncf .bf16 w bitsLt_bf16_f32) (ix2 p q)).trans ?_
  rw [← Equiv.sum_comp hidden.symm]
  refine Finset.sum_congr rfl fun k _ => ?_
  rw [left_at p q k, right_at p q k]
  rfl

end Cert.KernelIdeal.HiddenBlock

end
-- ==== Proof.HiddenLayer.lean ====
/-
  The second dense layer over all its grid steps: the output array ends as the whole product h · W2.

  The grid has 20 steps. Step t reads rows 5000 t … 5000 t + 4999 of the hidden activations and the whole 16 × 40
  weight matrix, and writes rows 5000 t … 5000 t + 4999 of the output. Entry (p, q) of what it writes is the sum
  over k of the block at (p, k) times the weight at (k, q), which is entry (5000 t + p, q) of the product of the
  whole arrays: a row of a matrix product depends on that row of the left factor only. The 20 row blocks are
  disjoint and every row lies in the block of step r / 5000, so after the last step the output array is the
  whole product, whatever it held before.
-/
import proofs.«100391_j23330262351896_1_alg».proof.Proof.Gen.KernelIdeal.Frame
import proofs.«100391_j23330262351896_1_alg».proof.Proof.HiddenBlock
import proofs.«100391_j23330262351896_1_alg».proof.Proof.WholeProduct
import Idealize.ShloMosaic.Lib.Pipeline.Value
import Idealize.ShloMosaic.Lib.ValueIdx

noncomputable section

open scoped BigOperators

namespace Cert.KernelIdeal.HiddenLayer

open Idealize.ShloMosaic Idealize.ShloMosaic.TcCoe Idealize.ShloMosaic.ValueIdx Idealize.ShloMosaic.Pipeline Cert.KernelIdeal Cert.KernelIdeal.Gen

-- the buffer contents the step sequence starts from: any
variable (V : (c : Dev nD) → (b : Ref sig .tc) → Buf (Elt Ideal) ((c : Thread nD τ).loc b))

theorem zero_offsets : (![0, 0] : Fin 2 → Nat) = fun _ => 0 := funext fun a => by fin_cases a <;> rfl

/-- Where each step's blocks sit: the left operand's and the output's at block (t, 0), the weights' at (0, 0). -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of step t's block is row 5000 t + p of the array, and there are 20 steps. -/
theorem row_lt (t : Fin cfg1.N) (p : Fin 5000) : t.val * 5000 + p.val < 100000 := by
  have h := t.isLt; have hN : cfg1.N = 20 := N_1; omega

/-- The whole product of the two operand arrays as the steps find them. -/
abbrev product (c : Dev nD) : FVec Ideal S100000x40 .f32 :=
  Host.dotGeneral (F := Ideal) (φ₁ := .f32) (φ₂ := .f32) Cert.ReferenceIdeal.dot_S100000x16_S16x40_S100000x40_1_0_0_1_n_n none
    (V c main_v48 : FVec Ideal S100000x16 .f32) (V c main_arg4 : FVec Ideal S16x40 .f32)

/-- The left operand's block at step t is rows 5000 t … of its array. -/
theorem rows_block (c : Dev nD) (t : Fin cfg1.N) (p : Fin 5000) (k : Fin 16) :
    (iblk1 V c 0 t : Vec Ideal S5000x16 .f32) (ix2 p k)
      = (V c main_v48 : S100000x16.Idx → Elt Ideal .f32) (ix2 ⟨t.val * 5000 + p.val, row_lt t p⟩ k) := by
  obtain ⟨e0, e1, -, -, -, -⟩ := block_positions t
  unfold iblk1
  rw [View.read_apply]
  show V c main_v48 _ = V c main_v48 _
  congr 1
  funext a
  apply Fin.ext
  match a with
  | ⟨0, _⟩ => show win1_0.index t 0 * 5000 + 1 * p.val = t.val * 5000 + p.val; rw [e0]; omega
  | ⟨1, _⟩ => show win1_0.index t 1 * 16 + 1 * k.val = k.val; rw [e1]; omega

/-- The weights' block at every step is the whole weight matrix. -/
theorem weights_block (c : Dev nD) (t : Fin cfg1.N) (k : Fin 16) (q : Fin 40) :
    (iblk1 V c 1 t : Vec Ideal S16x40 .f32) (ix2 k q)
      = (V c main_arg4 : S16x40.Idx → Elt Ideal .f32) (ix2 k q) := by
  obtain ⟨-, -, e2, e3, -, -⟩ := block_positions t
  unfold iblk1
  rw [View.read_apply]
  show V c main_arg4 _ = V c main_arg4 _
  congr 1
  funext a
  apply Fin.ext
  match a with
  | ⟨0, _⟩ => show win1_1.index t 0 * 16 + 1 * k.val = k.val; rw [e2]; omega
  | ⟨1, _⟩ => show win1_1.index t 1 * 40 + 1 * q.val = q.val; rw [e3]; omega

/-- WHAT STEP t WRITES BACK is rows 5000 t … 5000 t + 4999 of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S16x40) zero_offsets]
  obtain ⟨-, -, -, -, e4, e5⟩ := block_positions t
  funext j
  obtain ⟨p, q, rfl⟩ : ∃ (p : Fin 5000) (q : Fin 40), j = ix2 p q := ⟨j 0, j 1, eq_ix2 j⟩
  have hpos : ((cfg1.win 2).blk t).view.emb (ix2 p q) = ix2 ⟨t.val * 5000 + p.val, row_lt t p⟩ q := by
    funext a
    apply Fin.ext
    match a with
    | ⟨0, _⟩ => show win1_2.index t 0 * 5000 + 1 * p.val = t.val * 5000 + p.val; rw [e4]; omega
    | ⟨1, _⟩ => show win1_2.index t 1 * 40 + 1 * q.val = q.val; rw [e5]; omega
  refine (Cert.KernelIdeal.HiddenBlock.entry (iblk1 V c 0 t) (iblk1 V c 1 t) p q).trans ?_
  refine Eq.trans ?_ (congrArg (product V c) hpos).symm
  refine Eq.trans ?_ (Cert.ReferenceIdeal.HiddenProduct.entry (V c main_v48) (V c main_arg4) ⟨t.val * 5000 + p.val, row_lt t p⟩ q).symm
  exact Finset.sum_congr rfl fun k _ => by rw [rows_block V c t p k, weights_block V c t k q]

/-- Every entry of the output array is in the block of some step: row r in that of step r / 5000. -/
theorem covered (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : Nat) < 100000 := (i 0).isLt
  have h1 : (i 1 : Nat) < 40 := (i 1).isLt
  have hN : cfg1.N = 20 := N_1
  obtain ⟨t, ht⟩ : ∃ t : Fin cfg1.N, t.val = (i 0 : Nat) / 5000 := ⟨⟨(i 0 : Nat) / 5000, by rw [hN]; omega⟩, rfl⟩
  obtain ⟨-, -, -, -, e4, e5⟩ := block_positions t
  refine ⟨t, flush1_2 t, ?_⟩
  show i ∈ ((View.whole main_v49).slice (win1_2.rect t)).set
  rw [View.set_slice_whole, Rect.mem_set_unit]
  intro a
  match a with
  | ⟨0, _⟩ =>
    show win1_2.index t 0 * 5000 ≤ (i 0 : Nat) ∧ (i 0 : Nat) < win1_2.index t 0 * 5000 + 5000
    rw [e4, ht]; omega
  | ⟨1, _⟩ =>
    show win1_2.index t 1 * 40 ≤ (i 1 : Nat) ∧ (i 1 : Nat) < win1_2.index t 1 * 40 + 40
    rw [e5]; omega

/-- THE OUTPUT ARRAY AFTER THE LAST STEP is the whole product of the two operand arrays. -/
theorem final (c : Dev nD) : (dat1 V c).arrAt 2 cfg1.N = product V c :=
  (dat1 V c).arrAt_eq_of_cover 2 (product V c) (fun t _ => flushed_eq V c t) (covered c)

end Cert.KernelIdeal.HiddenLayer

end
-- ==== Proof.LibKeepBinary.lean ====
/-
  A two-operand host operation with its function held closed.

  Reading a list of host operations one operation at a time substitutes each operation's function into the
  operations that consume its result. A function that joins its two operands into a list of (shape, array) pairs,
  as a concatenation does, is a lambda: substituted as such it puts its operands inside those pairs before they
  have been read, and a rewriting pass does not reach them there, so the reading stops short at every
  concatenation. Held closed — `kept f`, the same function under a name that is not a lambda — it takes its
  operands as plain arguments, which are read first; afterwards `kept` unfolds away (`dsimp only [kept]`).
  Use: rewrite each concatenating operation of the list with `keep_binary a b y` (the three buffers named, the
  rest left to unification) before reading the list.
-/
import Idealize.ShloMosaic.Lib.StableHlo

namespace Cert.Lib.KeepBinary

open Idealize.ShloMosaic Idealize.ShloMosaic.TcCoe

/-- A two-argument function, held closed: the same function, but not a lambda to whoever applies it. -/
def kept {α β γ : Type} (f : α → β → γ) : α → β → γ := f

/-- It is the function. -/
theorem kept_apply {α β γ : Type} (f : α → β → γ) (x : α) (y : β) : kept f x y = f x y := rfl

/-- A two-operand host operation is the same operation with its function held closed. -/
theorem keep_binary {τ : Topo} {sig : RefSig} {Val : EltTy → Type} (a b y : Ref sig .tc)
    (f : a.ty.Contents Val → b.ty.Contents Val → y.ty.Contents Val)
    (ha : a.space ≠ .host ∧ (a : DevRef τ sig).isScoped = false)
    (hb : b.space ≠ .host ∧ (b : DevRef τ sig).isScoped = false)
    (hy : y.space ≠ .host ∧ (y : DevRef τ sig).isScoped = false) :
    StableHlo.binary (τ := τ) (Val := Val) a b y f ha hb hy = StableHlo.binary (τ := τ) (Val := Val) a b y (kept f) ha hb hy := rfl

end Cert.Lib.KeepBinary
-- ==== Proof.SameResult.lean ====
/-
  The two programs end with the same result.

  Both are the same two-layer graph convolution over 100000 nodes and 3200000 directed edges, each node given one
  extra self-loop: a dense product; then, for every node, the sum over the edges into it of the product's row at
  the edge's source, scaled by deg(source)^(-1/2) · deg(target)^(-1/2) (zero where a degree is zero), plus a bias;
  between the layers the positive part. They differ in one respect only. The reference forms each dense product by
  one matrix product on the host; the kernel forms it by a grid of 20 steps over blocks of 5000 node rows. After
  its last step each grid has left the whole product in its output array (FeatureLayer, HiddenLayer), and every
  other operation is the same operation applied to the same operands in the same order. So the two results are
  one function of the six argument arrays, entry by entry, on the extended reals. Nothing is asked of the numbers
  or of the edge list: in particular not that the inputs be finite, since no sum is regrouped and no factor moved.

  The kernel's result buffer is read back through its host operations one operation at a time: first down to the
  second grid's output array and the arguments, then, through the stretch between the grids, down to the first
  grid's output array and the arguments. What is left is the reference's own composed term.
-/
import proofs.«100391_j23330262351896_1_alg».proof.Proof.Gen.KernelIdeal.Frame
import proofs.«100391_j23330262351896_1_alg».proof.Proof.KernelRun
import proofs.«100391_j23330262351896_1_alg».proof.Proof.FeatureLayer
import proofs.«100391_j23330262351896_1_alg».proof.Proof.HiddenLayer
import proofs.«100391_j23330262351896_1_alg».proof.Proof.ReferenceRunPatched
import proofs.«100391_j23330262351896_1_alg».proof.Proof.LibKeepBinary
import Idealize.ShloMosaic.Lib.StableHlo.Run
import Idealize.ShloMosaic.PureOps.Ideal

set_option maxRecDepth 16384

noncomputable section

namespace Cert.Proof.SameResult

open Idealize.ShloMosaic Idealize.ShloMosaic.TcCoe Idealize.ShloMosaic.StableHlo Idealize.SL.Sem
open Cert.KernelIdeal Cert.KernelIdeal.Gen Cert.Lib.KeepBinary

variable (m : (ℓ : Loc nD τ sig) → Buf (Elt Ideal) ℓ) (ρ : Dev nD → PrngReg)

/-- Where the last host stretch finds the second layer's product: the whole product h · W2. -/
theorem hidden_product (c : Dev nD) :
    W6 m ρ c (Proc.devRef .tc main_v49) = Cert.KernelIdeal.HiddenLayer.product (V5 m ρ) c :=
  (W6_arr m ρ c 2).trans (Cert.KernelIdeal.HiddenLayer.final (V5 m ρ) c)

/-- Where the first host stretch finds the first layer's product: the whole product x · W1. -/
theorem feature_product (c : Dev nD) :
    W1 m ρ c (Proc.devRef .tc main_v0) = Cert.KernelIdeal.FeatureLayer.product (V0 m ρ) c :=
  (W1_arr m ρ c 2).trans (Cert.KernelIdeal.FeatureLayer.final (V0 m ρ) c)

set_option maxHeartbeats 4000000 in
/-- THE BRIDGE: from memories that agree on the six arguments, the reference's result term is what the kernel's
    result buffer ends holding. -/
theorem same_result (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.ValueP.res_main_v96 m' c = Cert.KernelIdeal.Named.result m ρ c := by
  unfold Cert.ReferenceIdeal.ValueP.res_main_v96
  rw [h0, h1, h2, h3, h4, h5]
  show _ = W9 m ρ c (Proc.devRef .tc main_v96)
  dsimp only [W9, W8, W7]
  simp only [hostOps2, hostOps2_1, hostOps2_2]
  rw [keep_binary main_v51 main_v54 main_v55, keep_binary main_v53 main_v54 main_v56]
  after_results_simp
  rw [hidden_product m ρ c, W6_of_ne m ρ c main_arg1 (by decide), W6_of_ne m ρ c main_arg5 (by decide)]
  dsimp only [Cert.KernelIdeal.HiddenLayer.product, V5, W5, W4, W3, W2]
  simp only [hostOps1, hostOps1_1, hostOps1_2, hostOps1_3]
  rw [keep_binary main_v2 main_v5 main_v6, keep_binary main_v4 main_v5 main_v7]
  after_results_simp
  have a1 : W1 m ρ c (Proc.devRef .tc main_arg1) = m ((c : Thread nD τ).loc main_arg1) := W1_of_ne m ρ c main_arg1 (by decide)
  have a3 : W1 m ρ c (Proc.devRef .tc main_arg3) = m ((c : Thread nD τ).loc main_arg3) := W1_of_ne m ρ c main_arg3 (by decide)
  have a4 : W1 m ρ c (Proc.devRef .tc main_arg4) = m ((c : Thread nD τ).loc main_arg4) := W1_of_ne m ρ c main_arg4 (by decide)
  have a5 : W1 m ρ c (Proc.devRef .tc main_arg5) = m ((c : Thread nD τ).loc main_arg5) := W1_of_ne m ρ c main_arg5 (by decide)
  have p0 : W1 m ρ c (Proc.devRef .tc main_v0)
      = Host.dotGeneral (F := Ideal) (φ₁ := .f32) (φ₂ := .f32) Cert.ReferenceIdeal.dot_S100000x128_S128x16_S100000x16_1_0_0_1_n_n none
          (m ((c : Thread nD τ).loc main_arg0) : FVec Ideal S100000x128 .f32) (m ((c : Thread nD τ).loc main_arg2) : FVec Ideal S128x16 .f32) :=
    feature_product m ρ c
  rw [p0, a1, a3, a4, a5]
  dsimp only [kept]
  simp only [show Cert.KernelIdeal.scatter_S100000_S3300000x1_S3300000_n_0_0_1 = Cert.ReferenceIdeal.scatter_S100000_S3300000x1_S3300000_n_0_0_1 from rfl,
    show Cert.KernelIdeal.gather_S100000_S3300000x1_S3300000_n_0_n_n_0_1_1 = Cert.ReferenceIdeal.gather_S100000_S3300000x1_S3300000_n_0_n_n_0_1_1 from rfl,
    show Cert.KernelIdeal.gather_S100000x16_S3300000x1_S3300000x16_1_0_n_n_0_1_116 = Cert.ReferenceIdeal.gather_S100000x16_S3300000x1_S3300000x16_1_0_n_n_0_1_116 from rfl,
    show Cert.KernelIdeal.scatter_S100000x16_S3300000x1_S3300000x16_1_0_0_1 = Cert.ReferenceIdeal.scatter_S100000x16_S3300000x1_S3300000x16_1_0_0_1 from rfl,
    show Cert.KernelIdeal.gather_S100000x40_S3300000x1_S3300000x40_1_0_n_n_0_1_140 = Cert.ReferenceIdeal.gather_S100000x40_S3300000x1_S3300000x40_1_0_n_n_0_1_140 from rfl,
    show Cert.KernelIdeal.scatter_S100000x40_S3300000x1_S3300000x40_1_0_0_1 = Cert.ReferenceIdeal.scatter_S100000x40_S3300000x1_S3300000x40_1_0_0_1 from rfl,
    TRef.toBuf, TRef.ofBuf, cast_eq,
    show main_v2.ty.shape = S3200000 from rfl, show main_v4.ty.shape = S3200000 from rfl, show main_v51.ty.shape = S3200000 from rfl, show main_v53.ty.shape = S3200000 from rfl]
  first | with_reducible rfl | rfl

end Cert.Proof.SameResult

end
-- ==== Proof.lean ====
/-
  The certificate of a two-layer graph convolution whose two dense products run as grid kernels.

  Frames. The word-level kernel and its idealization are each two grid regions among stretches of host operations:
  from any launch memory every weakly fair execution terminates, nothing faulting, and the six argument arrays end
  as launched, since no host operation and no region writes an argument. The reference is a host program with no
  region; its frame is its run with the result dropped.

  The idealization rewrote no operation, so there is nothing to state for it.

  Equal results on the extended reals. The kernel's result buffer ends at what its segments leave there, one after
  the other, from the launch memory (KernelRun); the reference's at its operations' composed term. From memories
  that agree on the six arguments these are one function of the arguments, entry by entry (SameResult): each grid
  leaves in its output array the whole matrix product the reference forms on the host, because a row of a matrix
  product depends on that row of the left factor only and the 20 row blocks tile the array, and every other
  operation of the two programs is the same operation on the same operands. No property of the inputs is used.
-/
import proofs.«100391_j23330262351896_1_alg».proof.Defs
import proofs.«100391_j23330262351896_1_alg».proof.Proof.Gen.Kernel
import proofs.«100391_j23330262351896_1_alg».proof.Proof.Gen.Kernel.Skeleton
import proofs.«100391_j23330262351896_1_alg».proof.Proof.Gen.Kernel.Launch
import proofs.«100391_j23330262351896_1_alg».proof.Proof.Gen.Kernel.Points
import proofs.«100391_j23330262351896_1_alg».proof.Proof.Gen.Kernel.Frame
import proofs.«100391_j23330262351896_1_alg».proof.Proof.Gen.KernelIdeal
import proofs.«100391_j23330262351896_1_alg».proof.Proof.Gen.KernelIdeal.Skeleton
import proofs.«100391_j23330262351896_1_alg».proof.Proof.Gen.KernelIdeal.Launch
import proofs.«100391_j23330262351896_1_alg».proof.Proof.Gen.KernelIdeal.Points
import proofs.«100391_j23330262351896_1_alg».proof.Proof.Gen.KernelIdeal.Frame
import proofs.«100391_j23330262351896_1_alg».proof.Proof.Gen.ReferenceIdeal
import proofs.«100391_j23330262351896_1_alg».proof.Proof.Gen.Pre_finite_inputs
import Idealize.ShloMosaic.Adequacy
import Idealize.ShloMosaic.Init
import proofs.«100391_j23330262351896_1_alg».proof.Proof.KernelRun
import proofs.«100391_j23330262351896_1_alg».proof.Proof.ReferenceRunPatched
import proofs.«100391_j23330262351896_1_alg».proof.Proof.SameResult

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- On the extended reals, from memories agreeing on the arguments, both programs run and end with the same result:
    the kernel's result buffer, as its segments leave it, which is the reference's composed term. -/
theorem algebraic : Cert.algebraic_KernelIdeal_ReferenceIdeal := fun m ρ m' ρ' _ hagree =>
  ⟨fun c => Cert.KernelIdeal.Named.result m ρ c, Cert.KernelIdeal.Named.run (F := Ideal) m ρ,
    (θ_run Cert.ReferenceIdeal.defs _ _).mono
      (fun _ h c => ⟨(h c).1.trans (Cert.Proof.SameResult.same_result m ρ m' c
          (hagree c).1 (hagree c).2.1 (hagree c).2.2.1 (hagree c).2.2.2.1 (hagree c).2.2.2.2.1 (hagree c).2.2.2.2.2), (h c).2⟩)
      (Cert.ReferenceIdeal.ValueP.run (F := Ideal) m' ρ')⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
